-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S_ : Shape := ⟨0, ![]⟩
abbrev S4096 : Shape := ⟨1, ![4096]⟩
abbrev S16x4096 : Shape := ⟨2, ![16, 4096]⟩
abbrev S4096x16 : Shape := ⟨2, ![4096, 16]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  reducesTo_S_S_d : S_.ReducesTo [] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg6 : FVec F S4096x16 .f32) (main_v12 : IVec S_ 1) (main_v15 : IVec S16x4096 1) (main_c_5 : IVec S_ 1) : IVec S_ 1 :=
  let main_v16 : IVec S_ 1 := (fun x v => Host.reduce IntOp.andi x v reducesTo_S16x4096_S_d0_1 h_S_) main_v15 main_c_5
  let main_v17 : IVec S_ 1 := andi main_v12 main_v16
  let main_v18 : FVec F S4096x16 .f32 := Host.absf main_arg6
  let main_cst_6 : FVec F S_ .f32 := constant S_ .f32 0x7F800000#32
  let main_v19 : FVec F S4096x16 .f32 := broadcastInDim S4096x16 ![] bcast_S_S4096x16 main_cst_6
  let main_v20 : IVec S4096x16 1 := cmpf .olt main_v18 main_v19
  let main_c_7 : IVec S_ 1 := constantI S_ 1 1#1
  let main_v21 : IVec S_ 1 := (fun x v => Host.reduce IntOp.andi x v reducesTo_S4096x16_S_d0_1 h_S_) main_v20 main_c_7
  let main_v22 : IVec S_ 1 := andi main_v17 main_v21
  main_v22

def fn {F : FTy → Type} [FloatOps F] (main_arg0 : FVec F S4x2048x4096 .f32) (main_arg1 : IVec S4096x4096 32) (main_arg2 : IVec S4096x1 32) (main_arg3 : FVec F S_ .f32) (main_arg4 : FVec F S4096 .f32) (main_arg5 : FVec F S16x4096 .f32) (main_arg6 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096 .f32 := Host.absf main_arg4
  let main_cst_2 : FVec F S_ .f32 := constant S_ .f32 0x7F800000#32
  let main_v9 : FVec F S4096 .f32 := broadcastInDim S4096 ![] bcast_S_S4096 main_cst_2
  let main_v10 : IVec S4096 1 := cmpf .olt main_v8 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v7 main_v11
  let main_v13 : FVec F S16x4096 .f32 := Host.absf main_arg5
  let main_cst_4 : FVec F S_ .f32 := constant S_ .f32 0x7F800000#32
  let main_v14 : FVec F S16x4096 .f32 := broadcastInDim S16x4096 ![] bcast_S_S16x4096 main_cst_4
  let main_v15 : IVec S16x4096 1 := cmpf .olt main_v13 main_v14
  let main_c_5 : IVec S_ 1 := constantI S_ 1 1#1
  fn_part1 (F := F) main_arg6 main_v12 main_v15 main_c_5
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S_ : Shape := ⟨0, ![]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x1 : Shape := ⟨2, ![1, 1]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S16x512 : Shape := ⟨2, ![16, 512]⟩
abbrev S1024x16 : Shape := ⟨2, ![1024, 16]⟩
abbrev S1024x1024 : Shape := ⟨2, ![1024, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .i32⟩
  | .hbm, ⟨3, _⟩ => ⟨S_, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S8192x4096, .f32⟩
  | .hbm, ⟨8, _⟩ => ⟨S1x1, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x1, .i32⟩
  | .local _ .vmem, ⟨5, _⟩ => ⟨S1024x1, .i32⟩
  | .local _ .vmem, ⟨6, _⟩ => ⟨S1x1, .f32⟩
  | .local _ .vmem, ⟨7, _⟩ => ⟨S1x1024, .f32⟩
  | .local _ .vmem, ⟨8, _⟩ => ⟨S1x1024, .f32⟩
  | .local _ .vmem, ⟨9, _⟩ => ⟨S16x512, .f32⟩
  | .local _ .vmem, ⟨10, _⟩ => ⟨S16x512, .f32⟩
  | .local _ .vmem, ⟨11, _⟩ => ⟨S1024x16, .f32⟩
  | .local _ .vmem, ⟨12, _⟩ => ⟨S1024x16, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  shapeCasts_S_S1x1 : S_.ShapeCasts S1x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  broadcasts_S1x1_S1024x1 : S1x1.Broadcasts S1024x1
  inb_S1024x512_S1024x512_0_0 : ∀ a, (![0, 0] : Fin 2 → Nat) a + S1024x512.size a ≤ S1024x512.size a
  h_S1024x512 : 0 < S1024x512.numel
  broadcasts_S1024x1_S1024x512 : S1024x1.Broadcasts S1024x512
  bitsLt_bf16_f32 : FTy.bits .bf16 < FTy.bits .f32
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S16x4096.size a
  hwx0_5 : ∀ i : grid0.Coords, EltTy.bits .f32 = 32 ∨ (Rect.block (s := S16x4096) S16x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x16.size a ≤ S4096x16.size a
  hwx0_6 : ∀ i : grid0.Coords, EltTy.bits .f32 = 32 ∨ (Rect.block (s := S4096x16) S1024x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S_ : Shape := ⟨0, ![]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .i32⟩
  | .hbm, ⟨3, _⟩ => ⟨S_, .f32⟩
  | .hbm, ⟨4, _⟩ => ⟨S4096, .f32⟩
  | .hbm, ⟨5, _⟩ => ⟨S16x4096, .f32⟩
  | .hbm, ⟨6, _⟩ => ⟨S4096x16, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | .hbm, ⟨17, _⟩ => ⟨S4x2048x16, .f32⟩
  | .hbm, ⟨18, _⟩ => ⟨S4x2048x4096, .f32⟩
  | .hbm, ⟨19, _⟩ => ⟨S_, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What each of the kernel body's three cases leaves in the two accumulators it carries from one step of the
  contraction to the next, and in the output block: read back as the body's payloads applied to the input blocks
  and to what the accumulators held before.
-/
import proofs.«137842_j57561151700993_1_alg».proof.Proof.Gen.KernelIdeal.Frame
import Idealize.ShloMosaic.Lib.Pipeline.Value
import Idealize.ShloMosaic.Lib.Tactic

set_option maxRecDepth 16384

noncomputable section

namespace Cert.KVal

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl

/-- An interior step of the contraction leaves the main accumulator at the accumulate payload of what it held. -/
theorem accMain_B (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : ¬cond0_0 i) (hc1 : ¬cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) (xs0 : Vec F S1024x1024 .f32) (xs1 : Vec F S1024x16 .f32) :
    sout0_B_0 c i a3 ha3 a4 ha4 a5 ha5 a6 ha6 a7 ha7 a8 ha8 a9 ha9 a10 ha10 a11 ha11 a12 ha12 hc0 hc1 x0 x1 x2 x3 x4 x5 x6 xs0 xs1 = k0_pay5 x3 x2 x1 x0 xs0 := by
  unfold sout0_B_0
  rw [View.read_writes_eq_canon _ _ _ (scover0_B_0 c i a3 ha3 a4 ha4 a5 ha5 a6 ha6 a7 ha7 a8 ha8 a9 ha9 a10 ha10 a11 ha11 a12 ha12 hc0 hc1 x0 x1 x2 x3 x4 x5 x6 xs0 xs1)]
  unfold kernelRun0_B
  dsimp only
  rw [View.canon_unit_zero hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

/-- … and the low-rank accumulator at its accumulate payload of what it held. -/
theorem accLora_B (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : ¬cond0_0 i) (hc1 : ¬cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) (xs0 : Vec F S1024x1024 .f32) (xs1 : Vec F S1024x16 .f32) :
    sout0_B_1 c i a3 ha3 a4 ha4 a5 ha5 a6 ha6 a7 ha7 a8 ha8 a9 ha9 a10 ha10 a11 ha11 a12 ha12 hc0 hc1 x0 x1 x2 x3 x4 x5 x6 xs0 xs1 = k0_pay6 x0 x5 xs1 := by
  unfold sout0_B_1
  rw [View.read_writes_eq_canon _ _ _ (scover0_B_1 c i a3 ha3 a4 ha4 a5 ha5 a6 ha6 a7 ha7 a8 ha8 a9 ha9 a10 ha10 a11 ha11 a12 ha12 hc0 hc1 x0 x1 x2 x3 x4 x5 x6 xs0 xs1)]
  unfold kernelRun0_B
  dsimp only
  rw [View.canon_unit_zero hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

/-- The last step of the contraction accumulates exactly as an interior one does, -/
theorem accMain_C (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : ¬cond0_0 i) (hc1 : cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) (xs0 : Vec F S1024x1024 .f32) (xs1 : Vec F S1024x16 .f32) :
    sout0_C_0 c i a3 ha3 a4 ha4 a5 ha5 a6 ha6 a7 ha7 a8 ha8 a9 ha9 a10 ha10 a11 ha11 a12 ha12 hc0 hc1 x0 x1 x2 x3 x4 x5 x6 xs0 xs1 = k0_pay5 x3 x2 x1 x0 xs0 := by
  unfold sout0_C_0
  rw [View.read_writes_eq_canon _ _ _ (scover0_C_0 c i a3 ha3 a4 ha4 a5 ha5 a6 ha6 a7 ha7 a8 ha8 a9 ha9 a10 ha10 a11 ha11 a12 ha12 hc0 hc1 x0 x1 x2 x3 x4 x5 x6 xs0 xs1)]
  unfold kernelRun0_C
  dsimp only
  sl_unfold_words
  rw [View.canon_unit_zero hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

theorem accLora_C (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : ¬cond0_0 i) (hc1 : cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) (xs0 : Vec F S1024x1024 .f32) (xs1 : Vec F S1024x16 .f32) :
    sout0_C_1 c i a3 ha3 a4 ha4 a5 ha5 a6 ha6 a7 ha7 a8 ha8 a9 ha9 a10 ha10 a11 ha11 a12 ha12 hc0 hc1 x0 x1 x2 x3 x4 x5 x6 xs0 xs1 = k0_pay6 x0 x5 xs1 := by
  unfold sout0_C_1
  rw [View.read_writes_eq_canon _ _ _ (scover0_C_1 c i a3 ha3 a4 ha4 a5 ha5 a6 ha6 a7 ha7 a8 ha8 a9 ha9 a10 ha10 a11 ha11 a12 ha12 hc0 hc1 x0 x1 x2 x3 x4 x5 x6 xs0 xs1)]
  unfold kernelRun0_C
  dsimp only
  sl_unfold_words
  rw [View.canon_unit_zero hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

/-- … and then writes the output block: the epilogue payload of the two accumulators it has just updated. -/
theorem out_C (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : ¬cond0_0 i) (hc1 : cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) (xs0 : Vec F S1024x1024 .f32) (xs1 : Vec F S1024x16 .f32) :
    out0_C_7 c i a3 ha3 a4 ha4 a5 ha5 a6 ha6 a7 ha7 a8 ha8 a9 ha9 a10 ha10 a11 ha11 a12 ha12 hc0 hc1 x0 x1 x2 x3 x4 x5 x6 xs0 xs1 = k0_pay1 x6 (k0_pay6 x0 x5 xs1) x4 (k0_pay5 x3 x2 x1 x0 xs0) := by
  unfold out0_C_7
  rw [View.read_writes_eq_canon _ _ _ (cover0_C_7 c i a3 ha3 a4 ha4 a5 ha5 a6 ha6 a7 ha7 a8 ha8 a9 ha9 a10 ha10 a11 ha11 a12 ha12 hc0 hc1 x0 x1 x2 x3 x4 x5 x6 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

/-- The first step of the contraction zeroes both accumulators and then accumulates into the zeros. -/
theorem accMain_A (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : cond0_0 i) (hc1 : ¬cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) :
    sout0_A_0 c i a3 ha3 a4 ha4 a5 ha5 a6 ha6 a7 ha7 a8 ha8 a9 ha9 a10 ha10 a11 ha11 a12 ha12 hc0 hc1 x0 x1 x2 x3 x4 x5 x6 = k0_pay5 x3 x2 x1 x0 k0_pay2 := by
  unfold sout0_A_0
  rw [View.read_writes_eq_canon _ _ _ (scover0_A_0 c i a3 ha3 a4 ha4 a5 ha5 a6 ha6 a7 ha7 a8 ha8 a9 ha9 a10 ha10 a11 ha11 a12 ha12 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

theorem accLora_A (c : Dev nD) (i : grid0.Coords) (a3 : Memref sig .tc .vmem S1024x512 .f32) (ha3 : a3.IsWhole) (a4 : Memref sig .tc .vmem S1024x512 .i32) (ha4 : a4.IsWhole) (a5 : Memref sig .tc .vmem S1024x1 .i32) (ha5 : a5.IsWhole) (a6 : Memref sig .tc .vmem S1x1 .f32) (ha6 : a6.IsWhole) (a7 : Memref sig .tc .vmem S1x1024 .f32) (ha7 : a7.IsWhole) (a8 : Memref sig .tc .vmem S16x512 .f32) (ha8 : a8.IsWhole) (a9 : Memref sig .tc .vmem S1024x16 .f32) (ha9 : a9.IsWhole) (a10 : Memref sig .tc .vmem S1024x1024 .f32) (ha10 : a10.IsWhole) (a11 : Memref sig .tc .vmem S1024x1024 .f32) (ha11 : a11.IsWhole) (a12 : Memref sig .tc .vmem S1024x16 .f32) (ha12 : a12.IsWhole) (hc0 : cond0_0 i) (hc1 : ¬cond0_1 i) (x0 : Vec F S1024x512 .f32) (x1 : Vec F S1024x512 .i32) (x2 : Vec F S1024x1 .i32) (x3 : Vec F S1x1 .f32) (x4 : Vec F S1x1024 .f32) (x5 : Vec F S16x512 .f32) (x6 : Vec F S1024x16 .f32) :
    sout0_A_1 c i a3 ha3 a4 ha4 a5 ha5 a6 ha6 a7 ha7 a8 ha8 a9 ha9 a10 ha10 a11 ha11 a12 ha12 hc0 hc1 x0 x1 x2 x3 x4 x5 x6 = k0_pay6 x0 x5 k0_pay3 := by
  unfold sout0_A_1
  rw [View.read_writes_eq_canon _ _ _ (scover0_A_1 c i a3 ha3 a4 ha4 a5 ha5 a6 ha6 a7 ha7 a8 ha8 a9 ha9 a10 ha10 a11 ha11 a12 ha12 hc0 hc1 x0 x1 x2 x3 x4 x5 x6)]
  unfold kernelRun0_A
  dsimp only
  sl_unfold_words
  rw [View.canon_cons_unit_zero (S := S1024x16) hz, View.readCov_unit_zero (S := S1024x16) _ hz]
  simp only [View.readAt_eq_ld, ha3.read_unread, ha4.read_unread, ha5.read_unread, ha6.read_unread, ha7.read_unread, ha8.read_unread, ha9.read_unread, ha11.read_unread, ha12.read_unread, View.ld_unit_zero (S := S1024x512) hz, View.ld_unit_zero (S := S1024x1) hz, View.ld_unit_zero (S := S1x1) hz, View.ld_unit_zero (S := S1x1024) hz, View.ld_unit_zero (S := S16x512) hz, View.ld_unit_zero (S := S1024x16) hz, View.ld_unit_zero (S := S1024x1024) hz]

end Cert.KVal

end
-- ==== Proof.Accum.lean ====
/-
  The two accumulators after each step, by recursion on the step: at a first step of a contraction (steps ≡ 0 mod 8)
  they are the accumulate payloads of the zero payloads; at every other step the accumulate payloads of what the
  step before left; and at a last step (≡ 7 mod 8) the output block is the epilogue payload of the two.
-/
import proofs.«137842_j57561151700993_1_alg».proof.Proof.Pieces

set_option maxRecDepth 16384

noncomputable section

namespace Cert.KVal

open Idealize.ShloMosaic Idealize.ShloMosaic.TcCoe Idealize.ShloMosaic.Tactic Idealize.SL.Sem
open Cert.KernelIdeal Cert.KernelIdeal.Gen

variable {F : FTy → Type} [FloatOps F]

variable (m : (ℓ : Loc nD τ sig) → Buf (Elt F) ℓ)

/-- What the step before `t` left (the accumulators are its second and third components). -/
abbrev prev (c : Dev nD) (t : Fin cfg0.N) : Vec F S1024x1024 .f32 × Vec F S1024x1024 .f32 × Vec F S1024x16 .f32 :=
  outsAt0 m c (t.val - 1) (Nat.lt_of_le_of_lt (Nat.sub_le _ _) t.isLt)

theorem acc_first (c : Dev nD) (t : Fin cfg0.N) (h0 : t.val % 8 = 0) :
    (outsAt0 m c t.val t.isLt).2.1 = k0_pay5 (iblk m c 3 t) (iblk m c 2 t) (iblk m c 1 t) (iblk m c 0 t) k0_pay2
    ∧ (outsAt0 m c t.val t.isLt).2.2 = k0_pay6 (iblk m c 0 t) (iblk m c 5 t) k0_pay3 := by
  have h1 : ¬t.val % 8 = 7 := by omega
  have e1 := accMain_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  have e2 := accLora_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  rw [outsAt0_A m c t h0 h1]
  dsimp only
  exact ⟨e1, e2⟩

theorem acc_next (c : Dev nD) (t : Fin cfg0.N) (h0 : ¬t.val % 8 = 0) :
    (outsAt0 m c t.val t.isLt).2.1 = k0_pay5 (iblk m c 3 t) (iblk m c 2 t) (iblk m c 1 t) (iblk m c 0 t) (prev m c t).2.1
    ∧ (outsAt0 m c t.val t.isLt).2.2 = k0_pay6 (iblk m c 0 t) (iblk m c 5 t) (prev m c t).2.2 := by
  by_cases h1 : t.val % 8 = 7
  · have e1 := accMain_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2
    have e2 := accLora_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2
    rw [outsAt0_C m c t h0 h1]
    dsimp only
    exact ⟨e1, e2⟩
  · have e1 := accMain_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev m c t).2.1 (prev m c t).2.2
    have e2 := accLora_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev m c t).2.1 (prev m c t).2.2
    rw [outsAt0_B m c t h0 h1]
    dsimp only
    exact ⟨e1, e2⟩

theorem out_last (c : Dev nD) (t : Fin cfg0.N) (h1 : t.val % 8 = 7) :
    (outsAt0 m c t.val t.isLt).1 = k0_pay1 (iblk m c 6 t) (outsAt0 m c t.val t.isLt).2.2 (iblk m c 4 t) (outsAt0 m c t.val t.isLt).2.1 := by
  have h0 : ¬t.val % 8 = 0 := by omega
  have e := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (prev m c t).2.1 (prev m c t).2.2
  rw [(acc_next m c t h0).1, (acc_next m c t h0).2, outsAt0_C m c t h0 h1]
  dsimp only
  exact e

end Cert.KVal

end
-- ==== Proof.Payloads.lean ====
/-
  The kernel body's arithmetic read at an index, on the extended reals. One step of the contraction adds to the main
  accumulator, at row p and column q, the sum over the step's 512 columns of x times the dequantised weight
  qweight · (qscale · meta_scale), and to the low-rank accumulator the sum of x times lora_A; the epilogue adds the bias
  to the main accumulator and twice the product of the low-rank accumulator with lora_B.
-/
import proofs.«137842_j57561151700993_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KVal

open Idealize.ShloMosaic Idealize.ShloMosaic.TcCoe Idealize.ShloMosaic.Tactic Idealize.SL.Sem
open Cert.KernelIdeal Cert.KernelIdeal.Gen
open Idealize.ShloMosaic.ValueIdx

variable {F : FTy → Type} [FloatOps F]

/-! ## The three matrix products, each a plain sum over its contracted axis -/

theorem dotMain_apply_l0 (i : S1024x1024.Idx) (qq : dot_S1024x512_S1024x512_S1024x1024_1_1_0_0_n_n.contr.Idx) : (dot_S1024x512_S1024x512_S1024x1024_1_1_0_0_n_n.lhsIdx i qq 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem dotMain_apply_r0 (i : S1024x1024.Idx) (qq : dot_S1024x512_S1024x512_S1024x1024_1_1_0_0_n_n.contr.Idx) : (dot_S1024x512_S1024x512_S1024x1024_1_1_0_0_n_n.rhsIdx i qq 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- Rows of the left block against rows of the right block, over the 512 shared columns. -/
theorem dotMain_apply (l : FVec Ideal S1024x512 .bf16) (r : FVec Ideal S1024x512 .bf16) (p : Fin 1024) (q : Fin 1024) :
    matmul dot_S1024x512_S1024x512_S1024x1024_1_1_0_0_n_n none l r (constant (F := Ideal) S1024x1024 .f32 0x00000000#32) (ix2 p q)
      = ∑ kk : Fin 512, l (ix2 p kk) * r (ix2 q kk) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact dotMain_apply_l0 _ _
    | ⟨1, _⟩ => exact (dot_S1024x512_S1024x512_S1024x1024_1_1_0_0_n_n.lhsIdx_val_of_single rfl _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact dotMain_apply_r0 _ _
    | ⟨1, _⟩ => exact (dot_S1024x512_S1024x512_S1024x1024_1_1_0_0_n_n.rhsIdx_val_of_single rfl _ _).trans hk)
  rw [el, er]

theorem dotLora_apply_l0 (i : S1024x16.Idx) (qq : dot_S1024x512_S16x512_S1024x16_1_1_0_0_n_n.contr.Idx) : (dot_S1024x512_S16x512_S1024x16_1_1_0_0_n_n.lhsIdx i qq 0).val = (i 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
theorem dotLora_apply_r0 (i : S1024x16.Idx) (qq : dot_S1024x512_S16x512_S1024x16_1_1_0_0_n_n.contr.Idx) : (dot_S1024x512_S16x512_S1024x16_1_1_0_0_n_n.rhsIdx i qq 0).val = (i 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
/-- The same against the 16 rows of the low-rank factor's block. -/
theorem dotLora_apply (l : FVec Ideal S1024x512 .bf16) (r : FVec Ideal S16x512 .bf16) (p : Fin 1024) (q : Fin 16) :
    matmul dot_S1024x512_S16x512_S1024x16_1_1_0_0_n_n none l r (constant (F := Ideal) S1024x16 .f32 0x00000000#32) (ix2 p q)
      = ∑ kk : Fin 512, l (ix2 p kk) * r (ix2 q kk) := by
  simp only [matmul]
  rw [Ideal.matmul_constant_zero_apply, ← Equiv.sum_comp (contrEquiv1 dot_S1024x512_S16x512_S1024x16_1_1_0_0_n_n 512 rfl rfl).symm]
  refine Finset.sum_congr rfl fun k _ => ?_
  have hk := contrEquiv1_symm_val dot_S1024x512_S16x512_S1024x16_1_1_0_0_n_n 512 rfl rfl k
  have el : dot_S1024x512_S16x512_S1024x16_1_1_0_0_n_n.lhsIdx (ix2 p q) ((contrEquiv1 dot_S1024x512_S16x512_S1024x16_1_1_0_0_n_n 512 rfl rfl).symm k) = ix2 p k := funext fun a => Fin.ext (by
    match a with
    | ⟨0, _⟩ => exact dotLora_apply_l0 _ _
    | ⟨1, _⟩ => exact (dot_S1024x512_S16x512_S1024x16_1_1_0_0_n_n.lhsIdx_val_of_single rfl _ _).trans hk)
  have er : dot_S1024x512_S16x512_S1024x16_1_1_0_0_n_n.rhsIdx (ix2 p q) ((contrEquiv1 dot_S1024x512_S16x512_S1024x16_1_1_0_0_n_n 512 rfl rfl).symm k) = ix2 q k := funext fun a => Fin.ext (by
    match a with
    | ⟨0, _⟩ => exact dotLora_apply_r0 _ _
    | ⟨1, _⟩ => exact (dot_S1024x512_S16x512_S1024x16_1_1_0_0_n_n.rhsIdx_val_of_single rfl _ _).trans hk)
  rw [el, er]

theorem dotUp_apply_l0 (i : S1024x1024.Idx) (qq : dot_S1024x16_S1024x16_S1024x1024_1_1_0_0_n_n.contr.Idx) : (dot_S1024x16_S1024x16_S1024x1024_1_1_0_0_n_n.lhsIdx i qq 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem dotUp_apply_r0 (i : S1024x1024.Idx) (qq : dot_S1024x16_S1024x16_S1024x1024_1_1_0_0_n_n.contr.Idx) : (dot_S1024x16_S1024x16_S1024x1024_1_1_0_0_n_n.rhsIdx i qq 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
/-- The low-rank accumulator against the rows of the second factor's block, over the rank 16. -/
theorem dotUp_apply (l : FVec Ideal S1024x16 .bf16) (r : FVec Ideal S1024x16 .bf16) (p : Fin 1024) (q : Fin 1024) :
    matmul dot_S1024x16_S1024x16_S1024x1024_1_1_0_0_n_n none l r (constant (F := Ideal) S1024x1024 .f32 0x00000000#32) (ix2 p q)
      = ∑ kk : Fin 16, l (ix2 p kk) * r (ix2 q kk) := by
  simp only [matmul]
  rw [Ideal.matmul_constant_zero_apply, ← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun a => Fin.ext (by
    match a with
    | ⟨0, _⟩ => exact dotUp_apply_l0 _ _
    | ⟨1, _⟩ => exact (dot_S1024x16_S1024x16_S1024x1024_1_1_0_0_n_n.lhsIdx_val_of_single rfl _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun a => Fin.ext (by
    match a with
    | ⟨0, _⟩ => exact dotUp_apply_r0 _ _
    | ⟨1, _⟩ => exact (dot_S1024x16_S1024x16_S1024x1024_1_1_0_0_n_n.rhsIdx_val_of_single rfl _ _).trans hk)
  rw [el, er]

/-! ## A column broadcast along its row, and a single entry down a column -/

/-- A [1, 1] array broadcast to a column reads its one entry everywhere. -/
theorem bcast_11_a1 {α : Type} (v : S1x1.Idx → α) (h : S1x1.Broadcasts S1024x1) (p : Fin 1024) (z : Fin 1) :
    broadcastTo S1024x1 v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

/-- A column broadcast along the rows' 512 entries reads the row's entry of the column. -/
theorem bcast_a1_ab {α : Type} (v : S1024x1.Idx → α) (h : S1024x1.Broadcasts S1024x512) (q : Fin 1024) (kk : Fin 512) :
    broadcastTo S1024x512 v h (ix2 q kk) = v (ix2 q (0 : Fin 1)) := by
  refine broadcastTo_apply v h (ix2 q kk) (ix2 q (0 : Fin 1)) fun ax => ?_
  match ax with
  | ⟨0, _⟩ => rfl
  | ⟨1, _⟩ => rfl

/-! ## The payloads -/

/-- The dequantised weight at row q, column kk of a block: the integer code times the row's scale times the global scale. -/
abbrev deq (v3 : Vec Ideal S1x1 .f32) (v5 : Vec Ideal S1024x1 .i32) (v9 : Vec Ideal S1024x512 .i32) (q : Fin 1024) (kk : Fin 512) : EReal :=
  (FloatOps.sitofp .f32 (v9 (ix2 q kk)) : Ideal .f32) * ((FloatOps.sitofp .f32 (v5 (ix2 q (0 : Fin 1))) : Ideal .f32) * v3 (ix2 (0 : Fin 1) (0 : Fin 1)))

theorem pay2_apply (y : S1024x1024.Idx) : k0_pay2 (F := Ideal) y = 0 := by
  unfold k0_pay2
  simp only [shapeCast_self]
  exact Ideal.ofBits_zero_f32

theorem pay3_apply (y : S1024x16.Idx) : k0_pay3 (F := Ideal) y = 0 := by
  unfold k0_pay3
  simp only [shapeCast_self]
  exact Ideal.ofBits_zero_f32

/-- One accumulation step of the main product. -/
theorem pay5_apply (v3 : Vec Ideal S1x1 .f32) (v5 : Vec Ideal S1024x1 .i32) (v9 : Vec Ideal S1024x512 .i32)
    (v14 : Vec Ideal S1024x512 .f32) (v17 : Vec Ideal S1024x1024 .f32) (p q : Fin 1024) :
    k0_pay5 v3 v5 v9 v14 v17 (ix2 p q) = v17 (ix2 p q) + ∑ kk : Fin 512, v14 (ix2 p kk) * deq v3 v5 v9 q kk := by
  unfold k0_pay5 k0_pay4
  simp only [shapeCast_self, addf_apply, dotMain_apply, truncf_apply, mulf_apply, sitofp_apply, bcast_a1_ab, bcast_11_a1]

/-- One accumulation step of the low-rank product. -/
theorem pay6_apply (v14 : Vec Ideal S1024x512 .f32) (v23 : Vec Ideal S16x512 .f32) (v25 : Vec Ideal S1024x16 .f32)
    (p : Fin 1024) (r : Fin 16) :
    k0_pay6 v14 v23 v25 (ix2 p r) = v25 (ix2 p r) + ∑ kk : Fin 512, v14 (ix2 p kk) * v23 (ix2 r kk) := by
  unfold k0_pay6 k0_pay4
  simp only [shapeCast_self, addf_apply, dotLora_apply, truncf_apply]

/-- The epilogue: the main accumulator plus the bias, plus twice the low-rank update. -/
theorem pay1_apply (v34 : Vec Ideal S1024x16 .f32) (v36 : Vec Ideal S1024x16 .f32) (v39 : Vec Ideal S1x1024 .f32)
    (v43 : Vec Ideal S1024x1024 .f32) (p q : Fin 1024) :
    k0_pay1 v34 v36 v39 v43 (ix2 p q)
      = (v43 (ix2 p q) + v39 (ix2 (0 : Fin 1) q)) + Ideal.ofBits .f32 0x40000000#32 * ∑ r : Fin 16, v36 (ix2 p r) * v34 (ix2 q r) := by
  unfold k0_pay1
  simp only [shapeCast_self, addf_apply, dotUp_apply, truncf_apply, mulf_apply, broadcast_apply, broadcastTo_1b_ab_apply]
  rfl

end Cert.KVal

end
-- ==== Proof.Blocks.lean ====
/-
  The arrays as the kernel's region finds them, read at natural-number coordinates (reduced modulo each axis, so that the
  readers are total), and each input block at a grid point read back in its array: the point number t encodes the row
  block t / 32, the column block (t / 8) % 4 and the contraction step t % 8.
-/
import proofs.«137842_j57561151700993_1_alg».proof.Proof.Gen.KernelIdeal.Frame
import Idealize.ShloMosaic.Lib.ValueIdx
import Idealize.ShloMosaic.Lib.Pipeline.Value

set_option maxRecDepth 16384

noncomputable section

namespace Cert.KVal

open Idealize.ShloMosaic Idealize.ShloMosaic.TcCoe Idealize.ShloMosaic.Tactic Idealize.SL.Sem
open Cert.KernelIdeal Cert.KernelIdeal.Gen
open Idealize.ShloMosaic.ValueIdx

variable {F : FTy → Type} [FloatOps F]

variable (m : (ℓ : Loc nD τ sig) → Buf (Elt Ideal) ℓ) (c : Dev nD)

/-- The activations, flattened to 8192 rows of 4096. -/
def xAt (r k : ℕ) : EReal := (V m c main_v0 : S8192x4096.Idx → EReal) (ix2 (⟨(r) % 8192, Nat.mod_lt _ (by decide)⟩ : Fin 8192) (⟨(k) % 4096, Nat.mod_lt _ (by decide)⟩ : Fin 4096))
/-- The integer weight codes. -/
def qwAt (n k : ℕ) : BitVec 32 := (V m c main_arg1 : S4096x4096.Idx → BitVec 32) (ix2 (⟨(n) % 4096, Nat.mod_lt _ (by decide)⟩ : Fin 4096) (⟨(k) % 4096, Nat.mod_lt _ (by decide)⟩ : Fin 4096))
/-- The per-row integer scales. -/
def qsAt (n : ℕ) : BitVec 32 := (V m c main_arg2 : S4096x1.Idx → BitVec 32) (ix2 (⟨(n) % 4096, Nat.mod_lt _ (by decide)⟩ : Fin 4096) (0 : Fin 1))
/-- The global scale. -/
def msV : EReal := (V m c main_v1 : S1x1.Idx → EReal) (ix2 (0 : Fin 1) (0 : Fin 1))
/-- The bias, as one row. -/
def biasAt (n : ℕ) : EReal := (V m c main_v2 : S1x4096.Idx → EReal) (ix2 (0 : Fin 1) (⟨(n) % 4096, Nat.mod_lt _ (by decide)⟩ : Fin 4096))
/-- The first low-rank factor. -/
def aAt (r k : ℕ) : EReal := (V m c main_arg5 : S16x4096.Idx → EReal) (ix2 (⟨(r) % 16, Nat.mod_lt _ (by decide)⟩ : Fin 16) (⟨(k) % 4096, Nat.mod_lt _ (by decide)⟩ : Fin 4096))
/-- The second low-rank factor. -/
def bAt (n r : ℕ) : EReal := (V m c main_arg6 : S4096x16.Idx → EReal) (ix2 (⟨(n) % 4096, Nat.mod_lt _ (by decide)⟩ : Fin 4096) (⟨(r) % 16, Nat.mod_lt _ (by decide)⟩ : Fin 16))

/-- The printed index maps in closed form, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val / 8 % 4
    ∧ win0_5.index t (0 : Fin 2) = 0 ∧ win0_5.index t (1 : Fin 2) = t.val % 8
    ∧ win0_6.index t (0 : Fin 2) = t.val / 8 % 4 ∧ win0_6.index t (1 : Fin 2) = 0
    ∧ win0_7.index t (0 : Fin 2) = t.val / 32 ∧ win0_7.index t (1 : Fin 2) = t.val / 8 % 4 :=
  (by decide +kernel : ∀ t : Fin grid0.N, _)

/-- The activations' block: rows of row block t / 32, columns of step t % 8. -/
theorem blk_x (t : Fin cfg0.N) (p : Fin 1024) (kk : Fin 512) :
    iblk m c 0 t (ix2 p kk) = xAt m c (1024 * (t.val / 32) + p.val) (512 * (t.val % 8) + kk.val) := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk xAt
  rw [View.read_apply]
  show V m c main_v0 (((cfg0.win 0).blk t).view.emb (ix2 p kk)) = V m c main_v0 _
  refine congrArg (V m c main_v0) (funext fun a => Fin.ext ?_)
  match a with
  | ⟨0, _⟩ => show win0_0.index t (0 : Fin 2) * 1024 + 1 * p.val = (1024 * (t.val / 32) + p.val) % 8192; have := p.isLt; omega
  | ⟨1, _⟩ => show win0_0.index t (1 : Fin 2) * 512 + 1 * kk.val = (512 * (t.val % 8) + kk.val) % 4096; have := kk.isLt; omega

/-- The weight codes' block: rows of column block (t / 8) % 4, columns of step t % 8. -/
theorem blk_qw (t : Fin cfg0.N) (q : Fin 1024) (kk : Fin 512) :
    iblk m c 1 t (ix2 q kk) = qwAt m c (1024 * (t.val / 8 % 4) + q.val) (512 * (t.val % 8) + kk.val) := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk qwAt
  rw [View.read_apply]
  show V m c main_arg1 (((cfg0.win 1).blk t).view.emb (ix2 q kk)) = V m c main_arg1 _
  refine congrArg (V m c main_arg1) (funext fun a => Fin.ext ?_)
  match a with
  | ⟨0, _⟩ => show win0_1.index t (0 : Fin 2) * 1024 + 1 * q.val = (1024 * (t.val / 8 % 4) + q.val) % 4096; have := q.isLt; omega
  | ⟨1, _⟩ => show win0_1.index t (1 : Fin 2) * 512 + 1 * kk.val = (512 * (t.val % 8) + kk.val) % 4096; have := kk.isLt; omega

/-- The row scales' block. -/
theorem blk_qs (t : Fin cfg0.N) (q : Fin 1024) :
    iblk m c 2 t (ix2 q (0 : Fin 1)) = qsAt m c (1024 * (t.val / 8 % 4) + q.val) := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk qsAt
  rw [View.read_apply]
  show V m c main_arg2 (((cfg0.win 2).blk t).view.emb (ix2 q (0 : Fin 1))) = V m c main_arg2 _
  refine congrArg (V m c main_arg2) (funext fun a => Fin.ext ?_)
  match a with
  | ⟨0, _⟩ => show win0_2.index t (0 : Fin 2) * 1024 + 1 * q.val = (1024 * (t.val / 8 % 4) + q.val) % 4096; have := q.isLt; omega
  | ⟨1, _⟩ => show win0_2.index t (1 : Fin 2) * 1 + 1 * 0 = 0; rw [e21]

/-- The global scale's one entry. -/
theorem blk_ms (t : Fin cfg0.N)  :
    iblk m c 3 t (ix2 (0 : Fin 1) (0 : Fin 1)) = msV m c  := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk msV
  rw [View.read_apply]
  show V m c main_v1 (((cfg0.win 3).blk t).view.emb (ix2 (0 : Fin 1) (0 : Fin 1))) = V m c main_v1 _
  refine congrArg (V m c main_v1) (funext fun a => Fin.ext ?_)
  match a with
  | ⟨0, _⟩ => show win0_3.index t (0 : Fin 2) * 1 + 1 * 0 = 0; rw [e30]
  | ⟨1, _⟩ => show win0_3.index t (1 : Fin 2) * 1 + 1 * 0 = 0; rw [e31]

/-- The bias's block. -/
theorem blk_bias (t : Fin cfg0.N) (q : Fin 1024) :
    iblk m c 4 t (ix2 (0 : Fin 1) q) = biasAt m c (1024 * (t.val / 8 % 4) + q.val) := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk biasAt
  rw [View.read_apply]
  show V m c main_v2 (((cfg0.win 4).blk t).view.emb (ix2 (0 : Fin 1) q)) = V m c main_v2 _
  refine congrArg (V m c main_v2) (funext fun a => Fin.ext ?_)
  match a with
  | ⟨0, _⟩ => show win0_4.index t (0 : Fin 2) * 1 + 1 * 0 = 0; rw [e40]
  | ⟨1, _⟩ => show win0_4.index t (1 : Fin 2) * 1024 + 1 * q.val = (1024 * (t.val / 8 % 4) + q.val) % 4096; have := q.isLt; omega

/-- The first low-rank factor's block: all 16 rows, columns of step t % 8. -/
theorem blk_a (t : Fin cfg0.N) (r : Fin 16) (kk : Fin 512) :
    iblk m c 5 t (ix2 r kk) = aAt m c r.val (512 * (t.val % 8) + kk.val) := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk aAt
  rw [View.read_apply]
  show V m c main_arg5 (((cfg0.win 5).blk t).view.emb (ix2 r kk)) = V m c main_arg5 _
  refine congrArg (V m c main_arg5) (funext fun a => Fin.ext ?_)
  match a with
  | ⟨0, _⟩ => show win0_5.index t (0 : Fin 2) * 16 + 1 * r.val = r.val % 16; have := r.isLt; omega
  | ⟨1, _⟩ => show win0_5.index t (1 : Fin 2) * 512 + 1 * kk.val = (512 * (t.val % 8) + kk.val) % 4096; have := kk.isLt; omega

/-- The second low-rank factor's block. -/
theorem blk_b (t : Fin cfg0.N) (q : Fin 1024) (r : Fin 16) :
    iblk m c 6 t (ix2 q r) = bAt m c (1024 * (t.val / 8 % 4) + q.val) r.val := by
  obtain ⟨e00, e01, e10, e11, e20, e21, e30, e31, e40, e41, e50, e51, e60, e61, e70, e71⟩ := idx_facts t
  have hN : t.val < 256 := lt_of_lt_of_eq t.isLt (show cfg0.N = 256 from N_0)
  unfold iblk bAt
  rw [View.read_apply]
  show V m c main_arg6 (((cfg0.win 6).blk t).view.emb (ix2 q r)) = V m c main_arg6 _
  refine congrArg (V m c main_arg6) (funext fun a => Fin.ext ?_)
  match a with
  | ⟨0, _⟩ => show win0_6.index t (0 : Fin 2) * 1024 + 1 * q.val = (1024 * (t.val / 8 % 4) + q.val) % 4096; have := q.isLt; omega
  | ⟨1, _⟩ => show win0_6.index t (1 : Fin 2) * 16 + 1 * r.val = r.val % 16; have := r.isLt; omega

end Cert.KVal

end
-- ==== Proof.Closed.lean ====
/-
  The accumulators in closed form. After the step numbered t the main accumulator of row block t / 32 and column block
  (t / 8) % 4 holds, at row p and column q, the sum over the contraction steps made so far (0 … t % 8) of each step's
  512 products x · W, and the low-rank accumulator the same sums of x · lora_A: by induction on the step, the first
  step of a contraction starting from zero. After a last step the output block holds the kernel's whole value.
-/
import proofs.«137842_j57561151700993_1_alg».proof.Proof.Accum
import proofs.«137842_j57561151700993_1_alg».proof.Proof.Payloads
import proofs.«137842_j57561151700993_1_alg».proof.Proof.Blocks

set_option maxRecDepth 16384

noncomputable section

namespace Cert.KVal

open Idealize.ShloMosaic Idealize.ShloMosaic.TcCoe Idealize.ShloMosaic.Tactic Idealize.SL.Sem
open Cert.KernelIdeal Cert.KernelIdeal.Gen
open Idealize.ShloMosaic.ValueIdx Finset

variable {F : FTy → Type} [FloatOps F]

variable (m : (ℓ : Loc nD τ sig) → Buf (Elt Ideal) ℓ) (c : Dev nD)

/-- The dequantised weight: the integer code times the row's integer scale times the global scale. -/
def wAt (n k : ℕ) : EReal :=
  (FloatOps.sitofp .f32 (qwAt m c n k) : Ideal .f32) * ((FloatOps.sitofp .f32 (qsAt m c n) : Ideal .f32) * msV m c)

/-- One contraction step's contribution to the main product, at row `R + p` and weight row `C + q`. -/
def mainStep (R C kb : ℕ) (p q : Fin 1024) : EReal :=
  ∑ kk : Fin 512, xAt m c (R + p.val) (512 * kb + kk.val) * wAt m c (C + q.val) (512 * kb + kk.val)

/-- One contraction step's contribution to the low-rank product. -/
def loraStep (R kb : ℕ) (p : Fin 1024) (r : Fin 16) : EReal :=
  ∑ kk : Fin 512, xAt m c (R + p.val) (512 * kb + kk.val) * aAt m c r.val (512 * kb + kk.val)

theorem step_main (t : Fin cfg0.N) (acc : Vec Ideal S1024x1024 .f32) (p q : Fin 1024) :
    k0_pay5 (iblk m c 3 t) (iblk m c 2 t) (iblk m c 1 t) (iblk m c 0 t) acc (ix2 p q)
      = acc (ix2 p q) + mainStep m c (1024 * (t.val / 32)) (1024 * (t.val / 8 % 4)) (t.val % 8) p q := by
  refine (pay5_apply (iblk m c 3 t) (iblk m c 2 t) (iblk m c 1 t) (iblk m c 0 t) acc p q).trans ?_
  unfold mainStep wAt
  refine congrArg (acc (ix2 p q) + ·) (Finset.sum_congr rfl fun kk _ => ?_)
  unfold deq
  rw [blk_x, blk_qw, blk_qs, blk_ms]

theorem step_lora (t : Fin cfg0.N) (acc : Vec Ideal S1024x16 .f32) (p : Fin 1024) (r : Fin 16) :
    k0_pay6 (iblk m c 0 t) (iblk m c 5 t) acc (ix2 p r)
      = acc (ix2 p r) + loraStep m c (1024 * (t.val / 32)) (t.val % 8) p r := by
  refine (pay6_apply (iblk m c 0 t) (iblk m c 5 t) acc p r).trans ?_
  unfold loraStep
  refine congrArg (acc (ix2 p r) + ·) (Finset.sum_congr rfl fun kk _ => ?_)
  rw [blk_x, blk_a]

/-- The accumulators after step `t`: the steps `0 … t % 8` of its contraction, summed. -/
def Closed (t : Fin cfg0.N) : Prop :=
  (∀ p q : Fin 1024, (outsAt0 m c t.val t.isLt).2.1 (ix2 p q)
      = ∑ kb ∈ range (t.val % 8 + 1), mainStep m c (1024 * (t.val / 32)) (1024 * (t.val / 8 % 4)) kb p q)
  ∧ (∀ (p : Fin 1024) (r : Fin 16), (outsAt0 m c t.val t.isLt).2.2 (ix2 p r)
      = ∑ kb ∈ range (t.val % 8 + 1), loraStep m c (1024 * (t.val / 32)) kb p r)

theorem closed_first (t : Fin cfg0.N) (h0 : t.val % 8 = 0) : Closed m c t := by
  obtain ⟨e1, e2⟩ := acc_first m c t h0
  constructor
  · intro p q
    rw [e1, step_main, pay2_apply, zero_add, h0, Finset.sum_range_one]
  · intro p r
    rw [e2, step_lora, pay3_apply, zero_add, h0, Finset.sum_range_one]

theorem closed_next (t : Fin cfg0.N) (h0 : ¬t.val % 8 = 0)
    (ih1 : ∀ p q : Fin 1024, (prev m c t).2.1 (ix2 p q)
      = ∑ kb ∈ range (t.val % 8), mainStep m c (1024 * (t.val / 32)) (1024 * (t.val / 8 % 4)) kb p q)
    (ih2 : ∀ (p : Fin 1024) (r : Fin 16), (prev m c t).2.2 (ix2 p r)
      = ∑ kb ∈ range (t.val % 8), loraStep m c (1024 * (t.val / 32)) kb p r) : Closed m c t := by
  obtain ⟨e1, e2⟩ := acc_next m c t h0
  constructor
  · intro p q
    rw [e1, step_main, ih1, Finset.sum_range_succ]
  · intro p r
    rw [e2, step_lora, ih2, Finset.sum_range_succ]

theorem closed : ∀ (n : ℕ) (h : n < cfg0.N), Closed m c ⟨n, h⟩
  | 0, h => closed_first m c ⟨0, h⟩ rfl
  | n + 1, h => by
    by_cases h0 : (n + 1) % 8 = 0
    · exact closed_first m c ⟨n + 1, h⟩ h0
    · obtain ⟨i1, i2⟩ := closed n (Nat.lt_of_succ_lt h)
      have a1 : n % 8 + 1 = (n + 1) % 8 := by omega
      have a2 : n / 32 = (n + 1) / 32 := by omega
      have a3 : n / 8 % 4 = (n + 1) / 8 % 4 := by omega
      refine closed_next m c ⟨n + 1, h⟩ h0 (fun p q => ?_) (fun p r => ?_)
      · have := i1 p q
        dsimp only at this
        rw [a1, a2, a3] at this
        exact this
      · have := i2 p r
        dsimp only at this
        rw [a1, a2] at this
        exact this

/-- The kernel's value at row `mm` and column `nn` of the flattened output: the main product (its eight steps summed) plus the
    bias, plus twice the low-rank update (its first product's eight steps summed, then contracted over the rank). -/
def gOut (mm nn : ℕ) : EReal :=
  ((∑ kb ∈ range 8, ∑ kk : Fin 512, xAt m c mm (512 * kb + kk.val) * wAt m c nn (512 * kb + kk.val)) + biasAt m c nn)
    + Ideal.ofBits .f32 0x40000000#32
      * ∑ r : Fin 16, (∑ kb ∈ range 8, ∑ kk : Fin 512, xAt m c mm (512 * kb + kk.val) * aAt m c r.val (512 * kb + kk.val)) * bAt m c nn r.val

/-- After a last step the output block is the kernel's value at the block's rows and columns. -/
theorem out_closed (t : Fin cfg0.N) (h1 : t.val % 8 = 7) (p q : Fin 1024) :
    (outsAt0 m c t.val t.isLt).1 (ix2 p q) = gOut m c (1024 * (t.val / 32) + p.val) (1024 * (t.val / 8 % 4) + q.val) := by
  obtain ⟨i1, i2⟩ := closed m c t.val t.isLt
  rw [out_last m c t h1]
  refine (pay1_apply (iblk m c 6 t) (outsAt0 m c t.val t.isLt).2.2 (iblk m c 4 t) (outsAt0 m c t.val t.isLt).2.1 p q).trans ?_
  unfold gOut
  have e8 : t.val % 8 + 1 = 8 := by omega
  have j1 := i1 p q
  dsimp only at j1
  rw [e8] at j1
  rw [j1, blk_bias]
  refine congrArg (fun z => _ + Ideal.ofBits .f32 0x40000000#32 * z) (Finset.sum_congr rfl fun r _ => ?_)
  have j2 := i2 p r
  dsimp only at j2
  rw [e8] at j2
  rw [j2, blk_b]
  rfl

end Cert.KVal

end
-- ==== Proof.Final.lean ====
/-
  The kernel's result. The output array of the region ends holding, at row mm and column nn, the kernel's value there:
  every block is written back once, after the last step of its contraction, and the blocks tile the array. The result
  of the program is that array reshaped to (4, 2048, 4096).
-/
import proofs.«137842_j57561151700993_1_alg».proof.Proof.Closed
import Idealize.ShloMosaic.Lib.StableHlo.Run

set_option maxRecDepth 16384

noncomputable section

namespace Cert.KVal

open Idealize.ShloMosaic Idealize.ShloMosaic.TcCoe Idealize.ShloMosaic.Tactic Idealize.SL.Sem
open Cert.KernelIdeal Cert.KernelIdeal.Gen
open Idealize.ShloMosaic.ValueIdx Finset
open Idealize.ShloMosaic.Pipeline (Dat)

variable {F : FTy → Type} [FloatOps F]

variable (m : (ℓ : Loc nD τ sig) → Buf (Elt Ideal) ℓ) (ρ : Dev nD → PrngReg)

/-- The region's output array, as a function of its index. -/
def gArr (c : Dev nD) : S8192x4096.Idx → EReal := fun y => gOut m c (y 0).val (y 1).val

/-- What a flushing point writes back is its block of `gArr`. -/
theorem flushed_eq (c : Dev nD) (t : Fin cfg0.N) (hf : (cfg0.win 7).flush t = true) :
    (dats m 0 c).flushed 7 t = ((cfg0.win 7).blk t).view.read (Elt Ideal) (gArr m c) := by
  have h7 : t.val % 8 = 7 := (flush0_7 t).mp hf
  obtain ⟨e00, e01, e10, e11, e20, e21, e30, e31, e40, e41, e50, e51, e60, e61, e70, e71⟩ := idx_facts t
  show (cfg0.win 7).cut (grid0.coords t) ((dats m 0 c).after 7 t) = _
  rw [after0_7]
  funext y
  obtain ⟨p, q, rfl⟩ : ∃ (p q : Fin 1024), y = ix2 p q := ⟨y 0, y 1, eq_ix2 y⟩
  show (outsAt0 m c t.val t.isLt).1 (ix2 p q) = gArr m c (((cfg0.win 7).blk t).view.emb (ix2 p q))
  rw [out_closed m c t h7 p q]
  unfold gArr
  have a0 : ((((cfg0.win 7).blk t).view.emb (ix2 p q)) 0).val = 1024 * (t.val / 32) + p.val := by
    show win0_7.index t (0 : Fin 2) * 1024 + 1 * p.val = _
    omega
  have a1 : ((((cfg0.win 7).blk t).view.emb (ix2 p q)) 1).val = 1024 * (t.val / 8 % 4) + q.val := by
    show win0_7.index t (1 : Fin 2) * 1024 + 1 * q.val = _
    omega
  rw [a0, a1]

/-- An index is in point `t`'s output block iff each coordinate is in the block's range. -/
theorem mem_blk (t : Fin cfg0.N) (i : S8192x4096.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v3).slice (win0_7.rect t)).set ↔ _
  rw [View.set_slice_whole, Rect.mem_set_unit]
  exact Iff.rfl

/-- The output array after the run. -/
theorem final (c : Dev nD) : (dats m 0 c).arrAt 7 cfg0.N = gArr m c :=
  (dats m 0 c).arrAt_eq_of_cover 7 (gArr m c) (flushed_eq m c) fun i => by
    have hi0 : (i 0).val < 8192 := (i 0).isLt
    have hi1 : (i 1).val < 4096 := (i 1).isLt
    let t : Fin cfg0.N := ⟨32 * ((i 0).val / 1024) + 8 * ((i 1).val / 1024) + 7, lt_of_lt_of_eq (by omega : _ < 256) N_0.symm⟩
    obtain ⟨e00, e01, e10, e11, e20, e21, e30, e31, e40, e41, e50, e51, e60, e61, e70, e71⟩ := idx_facts t
    have tv : t.val = 32 * ((i 0).val / 1024) + 8 * ((i 1).val / 1024) + 7 := rfl
    refine ⟨t, (flush0_7 t).mpr (by omega), ?_⟩
    rw [mem_blk]
    intro a
    match a with
    | ⟨0, _⟩ => show win0_7.index t (0 : Fin 2) * 1024 ≤ (i 0).val ∧ (i 0).val < win0_7.index t (0 : Fin 2) * 1024 + 1024; omega
    | ⟨1, _⟩ => show win0_7.index t (1 : Fin 2) * 1024 ≤ (i 1).val ∧ (i 1).val < win0_7.index t (1 : Fin 2) * 1024 + 1024; omega

/-- The program's result: the output array reshaped. -/
def kOut (c : Dev nD) : S4x2048x4096.Idx → EReal :=
  shapeCast S4x2048x4096 (gArr m c) shapeCasts_S8192x4096_S4x2048x4096

/-- The host reshape after the region reads the region's output array. -/
theorem tail_eq (c : Dev nD) :
    Pipeline.afterTail₀ cfgs (dats m) 0 (V0 m) [hostOps1] c main_v4 = kOut m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3) = gArr m c :=
    (Pipeline.withArrays_arr spec0 launch0.win.arr_inj c _ _ 7).trans (final m c)
  rw [e]
  rfl

/-- The kernel's run, read: its result is `kOut`, and its seven arguments end unchanged. -/
theorem run : θ_run defs (onTc (τ := τ) (main (F := Ideal))) ⟨m, fun _ => 0, ρ⟩ (fun r => ∀ c : Dev nD,
      r.2.mem ((c.tc : Thread nD τ).loc main_v4) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.KVal

end
-- ==== Proof.Reference.lean ====
/-
  The reference read as one function of the argument arrays: at batch b, position s and output feature o it is
  (∑ₖ x[b,s,k] · (qweight[o,k] · (qscale[o] · meta_scale)) + bias[o]) + 2 · ∑ᵣ (∑ₖ x[b,s,k] · lora_A[r,k]) · lora_B[o,r].
-/
import proofs.«137842_j57561151700993_1_alg».proof.Proof.Gen.ReferenceIdeal.Read
import Idealize.ShloMosaic.Lib.ValueIdx
import Idealize.ShloMosaic.PureOps.Ideal.Laws

noncomputable section

namespace Cert.RefVal

open Idealize.ShloMosaic Idealize.ShloMosaic.ValueIdx Cert.ReferenceIdeal Cert.ReferenceIdeal.Read

/-- The reference's value at (b, s, o). -/
def gRef (x0 : S4x2048x4096.Idx → EReal) (x1 : S4096x4096.Idx → BitVec 32) (x2 : S4096x1.Idx → BitVec 32) (x3 : S_.Idx → EReal)
    (x4 : S4096.Idx → EReal) (x5 : S16x4096.Idx → EReal) (x6 : S4096x16.Idx → EReal) (b : Fin 4) (s : Fin 2048) (o : Fin 4096) : EReal :=
  ((∑ k : Fin 4096, x0 (ix3 b s k) * ((FloatOps.sitofp .f32 (x1 (ix2 o k)) : Ideal .f32) * ((FloatOps.sitofp .f32 (x2 (ix2 o (0 : Fin 1))) : Ideal .f32) * x3 ix0)))
      + x4 (ix1 o))
    + Ideal.ofBits .f32 0x40000000#32 * ∑ r : Fin 16, (∑ k : Fin 4096, x0 (ix3 b s k) * x5 (ix2 r k)) * x6 (ix2 o r)

theorem l6 (b : Fin 4) (s : Fin 2048) (o k : Fin 4096) : (lidx_main_v6 (ix3 b s o) k = ix3 b s k) := funext fun a => Fin.ext (by match a with | ⟨0, _⟩ => rfl | ⟨1, _⟩ => rfl | ⟨2, _⟩ => rfl)
theorem r6 (b : Fin 4) (s : Fin 2048) (o k : Fin 4096) : (ridx_main_v6 (ix3 b s o) k = ix2 o k) := funext fun a => Fin.ext (by match a with | ⟨0, _⟩ => rfl | ⟨1, _⟩ => rfl)
theorem i4 (o k : Fin 4096) : (idx_main_v4 (ix2 o k) = ix2 o (0 : Fin 1)) := funext fun a => Fin.ext (by match a with | ⟨0, _⟩ => rfl | ⟨1, _⟩ => rfl)
theorem i1 (i : S4096x1.Idx) : idx_main_v1 i = ix0 := rfl
theorem i8 (b : Fin 4) (s : Fin 2048) (o : Fin 4096) : (idx_main_v8 (ix3 b s o) = ix3 (0 : Fin 1) (0 : Fin 1) o) := funext fun a => Fin.ext (by match a with | ⟨0, _⟩ => rfl | ⟨1, _⟩ => rfl | ⟨2, _⟩ => rfl)
theorem i7 (o : Fin 4096) : (idx_main_v7 (ix3 (0 : Fin 1) (0 : Fin 1) o) = ix1 o) := funext fun a => Fin.ext (by match a with | ⟨0, _⟩ => rfl)
theorem l11 (b : Fin 4) (s : Fin 2048) (o : Fin 4096) (r : Fin 16) : (lidx_main_v11 (ix3 b s o) r = ix3 b s r) := funext fun a => Fin.ext (by match a with | ⟨0, _⟩ => rfl | ⟨1, _⟩ => rfl | ⟨2, _⟩ => rfl)
theorem r11 (b : Fin 4) (s : Fin 2048) (o : Fin 4096) (r : Fin 16) : (ridx_main_v11 (ix3 b s o) r = ix2 o r) := funext fun a => Fin.ext (by match a with | ⟨0, _⟩ => rfl | ⟨1, _⟩ => rfl)
theorem l10 (b : Fin 4) (s : Fin 2048) (r : Fin 16) (k : Fin 4096) : (lidx_main_v10 (ix3 b s r) k = ix3 b s k) := funext fun a => Fin.ext (by match a with | ⟨0, _⟩ => rfl | ⟨1, _⟩ => rfl | ⟨2, _⟩ => rfl)
theorem r10 (b : Fin 4) (s : Fin 2048) (r : Fin 16) (k : Fin 4096) : (ridx_main_v10 (ix3 b s r) k = ix2 r k) := funext fun a => Fin.ext (by match a with | ⟨0, _⟩ => rfl | ⟨1, _⟩ => rfl)

/-- The reference's last stage, read at an index, is `gRef`. -/
theorem ref_apply (x0 : S4x2048x4096.Idx → EReal) (x1 : S4096x4096.Idx → BitVec 32) (x2 : S4096x1.Idx → BitVec 32) (x3 : S_.Idx → EReal)
    (x4 : S4096.Idx → EReal) (x5 : S16x4096.Idx → EReal) (x6 : S4096x16.Idx → EReal) (b : Fin 4) (s : Fin 2048) (o : Fin 4096) :
    val_main_v14 (F := Ideal) x0 x1 x2 x3 x4 x5 x6 (ix3 b s o) = gRef x0 x1 x2 x3 x4 x5 x6 b s o := by
  rw [val_main_v14_apply, val_main_v9_apply, val_main_v13_apply, val_main_v6_apply, val_main_v8_apply, val_main_v7_apply,
    val_main_v12_apply, val_main_cst_apply, val_main_v11_apply]
  simp only [val_main_v10_apply, val_main_v5_apply, val_main_v3_apply, val_main_v4_apply, val_main_v2_apply, val_main_v0_apply,
    val_main_v1_apply, l6, r6, i4, i1, i8, i7, l11, r11, l10, r10]
  rfl

end Cert.RefVal

end
-- ==== Proof.Spec.lean ====
/-
  The one law that joins the kernel's arrangement of the contraction to the reference's: a sum over the 4096
  contracted columns is the sum, over the 8 blocks of 512 columns, of each block's sum. It holds in any commutative
  additive monoid, so on the extended reals with no finiteness assumption.
-/
import Mathlib.Algebra.BigOperators.Fin
import Mathlib.Algebra.BigOperators.Intervals
import Idealize.ShloMosaic.PureOps.Ideal
import Idealize.ShloMosaic.Lib.ValueIdx

noncomputable section

namespace Cert.Spec

open Idealize.ShloMosaic Finset

variable {M : Type*} [AddCommMonoid M]

/-- The first `512 · n` terms, block by block. -/
theorem sum_range_blocks (f : ℕ → M) (n : ℕ) :
    ∑ kb ∈ range n, ∑ kk ∈ range 512, f (512 * kb + kk) = ∑ k ∈ range (512 * n), f k := by
  induction n with
  | zero => simp
  | succ n ih =>
    rw [Finset.sum_range_succ, ih, Nat.mul_succ, Finset.sum_range_add]

/-- The 4096 columns as 8 blocks of 512, the inner sum over `Fin 512`. -/
theorem sum_blocks (f : ℕ → M) :
    ∑ kb ∈ range 8, ∑ kk : Fin 512, f (512 * kb + kk.val) = ∑ k : Fin 4096, f k.val := by
  rw [Fin.sum_univ_eq_sum_range (fun k => f k) 4096, ← sum_range_blocks f 8]
  refine Finset.sum_congr rfl fun kb _ => ?_
  exact Fin.sum_univ_eq_sum_range (fun kk => f (512 * kb + kk)) 512

/-- The same for a sum of products of two functions of the column. -/
theorem sum_blocks_mul {R : Type*} [AddCommMonoid R] [Mul R] (f g : ℕ → R) :
    ∑ kb ∈ range 8, ∑ kk : Fin 512, f (512 * kb + kk.val) * g (512 * kb + kk.val) = ∑ k : Fin 4096, f k.val * g k.val :=
  sum_blocks (fun k => f k * g k)

end Cert.Spec

end
-- ==== Proof.Bridge.lean ====
/-
  The kernel's value is the reference's. The arrays the region finds are the arguments themselves, or reshapes of them
  (the activations flattened to 8192 rows, the scalar and the bias given unit axes); read through those, the kernel's
  value at row 2048·b + s and column o is the reference's at (b, s, o): the contraction's eight blocks of 512 columns
  make up its 4096 columns, which is the only algebra between the two sides.
-/
import proofs.«137842_j57561151700993_1_alg».proof.Proof.Final
import proofs.«137842_j57561151700993_1_alg».proof.Proof.Reference
import proofs.«137842_j57561151700993_1_alg».proof.Proof.Spec
import Idealize.ShloMosaic.Lib.ValueLayout

set_option maxRecDepth 16384

noncomputable section

namespace Cert.KVal

open Idealize.ShloMosaic Idealize.ShloMosaic.TcCoe Idealize.ShloMosaic.Tactic Idealize.SL.Sem
open Cert.KernelIdeal Cert.KernelIdeal.Gen
open Idealize.ShloMosaic.ValueIdx Finset Cert.RefVal

variable {F : FTy → Type} [FloatOps F]

variable (m : (ℓ : Loc nD τ sig) → Buf (Elt Ideal) ℓ) (c : Dev nD)

/-! ## The three reshaped arguments, as the region finds them -/

theorem V_v0 : V m c main_v0 = shapeCast S8192x4096 (m ((c : Thread nD τ).loc main_arg0)) shapeCasts_S4x2048x4096_S8192x4096 := by
  show StableHlo.after hostOps0 (fun b => m (c, b)) (Proc.devRef .tc main_v0) = _
  after_results
  rfl

theorem V_v1 : V m c main_v1 = shapeCast S1x1 (m ((c : Thread nD τ).loc main_arg3)) shapeCasts_S_S1x1 := by
  show StableHlo.after hostOps0 (fun b => m (c, b)) (Proc.devRef .tc main_v1) = _
  after_results
  rfl

theorem V_v2 : V m c main_v2 = shapeCast S1x4096 (m ((c : Thread nD τ).loc main_arg4)) shapeCasts_S4096_S1x4096 := by
  show StableHlo.after hostOps0 (fun b => m (c, b)) (Proc.devRef .tc main_v2) = _
  after_results
  rfl

/-! ## The readers, in the arguments -/

theorem mod4096 (o : Fin 4096) : (⟨o.val % 4096, Nat.mod_lt _ (by decide)⟩ : Fin 4096) = o := Fin.ext (Nat.mod_eq_of_lt o.isLt)
theorem mod16 (r : Fin 16) : (⟨r.val % 16, Nat.mod_lt _ (by decide)⟩ : Fin 16) = r := Fin.ext (Nat.mod_eq_of_lt r.isLt)

/-- Row 2048·b + s of the flattened activations is position s of batch b. -/
theorem xAt_eq (b : Fin 4) (s : Fin 2048) (k : Fin 4096) :
    xAt m c (2048 * b.val + s.val) k.val = ((m ((c : Thread nD τ).loc main_arg0)) : S4x2048x4096.Idx → EReal) (ix3 b s k) := by
  unfold xAt
  rw [V_v0]
  refine shapeCast_apply _ _ _ (ix3 b s k) ?_
  rw [Shape.rowMajor_val_three, Shape.rowMajor_val_two]
  show (b.val * 2048 + s.val) * 4096 + k.val = ((2048 * b.val + s.val) % 8192) * 4096 + k.val % 4096
  have := b.isLt; have := s.isLt; have := k.isLt; omega

theorem qwAt_eq (o k : Fin 4096) : qwAt m c o.val k.val = ((m ((c : Thread nD τ).loc main_arg1)) : S4096x4096.Idx → BitVec 32) (ix2 o k) := by
  unfold qwAt
  rw [V_main_arg1, mod4096 o, mod4096 k]

theorem qsAt_eq (o : Fin 4096) : qsAt m c o.val = ((m ((c : Thread nD τ).loc main_arg2)) : S4096x1.Idx → BitVec 32) (ix2 o (0 : Fin 1)) := by
  unfold qsAt
  rw [V_main_arg2, mod4096 o]

theorem msV_eq : msV m c = ((m ((c : Thread nD τ).loc main_arg3)) : S_.Idx → EReal) ix0 := by
  unfold msV
  rw [V_v1]
  refine shapeCast_apply _ _ _ ix0 ?_
  rw [Shape.rowMajor_val_two]
  have h := (S_.rowMajor ix0).isLt
  have h1 : S_.numel = 1 := by decide
  show (S_.rowMajor ix0).val = 0 * 1 + 0
  omega

theorem biasAt_eq (o : Fin 4096) : biasAt m c o.val = ((m ((c : Thread nD τ).loc main_arg4)) : S4096.Idx → EReal) (ix1 o) := by
  unfold biasAt
  rw [V_v2, mod4096 o]
  exact shapeCast_a_1a_apply _ _ (0 : Fin 1) o

theorem aAt_eq (r : Fin 16) (k : Fin 4096) : aAt m c r.val k.val = ((m ((c : Thread nD τ).loc main_arg5)) : S16x4096.Idx → EReal) (ix2 r k) := by
  unfold aAt
  rw [V_main_arg5, mod16 r, mod4096 k]

theorem bAt_eq (o : Fin 4096) (r : Fin 16) : bAt m c o.val r.val = ((m ((c : Thread nD τ).loc main_arg6)) : S4096x16.Idx → EReal) (ix2 o r) := by
  unfold bAt
  rw [V_main_arg6, mod4096 o, mod16 r]

theorem wAt_eq (o k : Fin 4096) :
    wAt m c o.val k.val = (FloatOps.sitofp .f32 (((m ((c : Thread nD τ).loc main_arg1)) : S4096x4096.Idx → BitVec 32) (ix2 o k)) : Ideal .f32)
      * ((FloatOps.sitofp .f32 (((m ((c : Thread nD τ).loc main_arg2)) : S4096x1.Idx → BitVec 32) (ix2 o (0 : Fin 1))) : Ideal .f32) * ((m ((c : Thread nD τ).loc main_arg3)) : S_.Idx → EReal) ix0) := by
  unfold wAt
  rw [qwAt_eq, qsAt_eq, msV_eq]

/-! ## The two sides -/

/-- The kernel's value at row 2048·b + s, column o is the reference's at (b, s, o). -/
theorem bridge (b : Fin 4) (s : Fin 2048) (o : Fin 4096) :
    gOut m c (2048 * b.val + s.val) o.val
      = gRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s o := by
  have h1 : (∑ kb ∈ range 8, ∑ kk : Fin 512, xAt m c (2048 * b.val + s.val) (512 * kb + kk.val) * wAt m c o.val (512 * kb + kk.val))
      = ∑ k : Fin 4096, xAt m c (2048 * b.val + s.val) k.val * wAt m c o.val k.val :=
    Spec.sum_blocks_mul (xAt m c (2048 * b.val + s.val)) (wAt m c o.val)
  have h2 : ∀ r : Fin 16, (∑ kb ∈ range 8, ∑ kk : Fin 512, xAt m c (2048 * b.val + s.val) (512 * kb + kk.val) * aAt m c r.val (512 * kb + kk.val))
      = ∑ k : Fin 4096, xAt m c (2048 * b.val + s.val) k.val * aAt m c r.val k.val :=
    fun r => Spec.sum_blocks_mul (xAt m c (2048 * b.val + s.val)) (aAt m c r.val)
  unfold gOut gRef
  rw [h1, biasAt_eq]
  simp only [h2, xAt_eq, wAt_eq, aAt_eq, bAt_eq]

/-- So the kernel's result array is the reference's value at every index. -/
theorem kOut_apply (b : Fin 4) (s : Fin 2048) (o : Fin 4096) :
    kOut m c (ix3 b s o)
      = gRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s o := by
  have hb := b.isLt; have hs := s.isLt
  rw [← bridge m c b s o]
  unfold kOut
  refine (shapeCast_apply (gArr m c) _ (ix3 b s o) (ix2 (⟨2048 * b.val + s.val, by omega⟩ : Fin 8192) o) ?_).trans rfl
  rw [Shape.rowMajor_val_three, Shape.rowMajor_val_two]
  show (2048 * b.val + s.val) * 4096 + o.val = (b.val * 2048 + s.val) * 4096 + o.val
  omega

end Cert.KVal

end
-- ==== Proof.lean ====
/-
  A linear layer with 4-bit quantised weights and a low-rank update, on the extended reals.

  With x the activations (4 × 2048 rows of 4096), W[o,k] = qweight[o,k] · (qscale[o] · meta_scale) the dequantised weight,
  A and B the two low-rank factors (rank 16), both programs compute, at batch b, position s and output feature o,

      (∑ₖ x[b,s,k] · W[o,k] + bias[o]) + 2 · ∑ᵣ (∑ₖ x[b,s,k] · A[r,k]) · B[o,r].

  The reference does so with three whole contractions. The kernel flattens x to 8192 rows, tiles the output in blocks of
  1024 × 1024 and walks the 4096 contracted columns in eight steps of 512: at each step it adds the step's partial products
  to two accumulators (zeroed at the first step), and after the eighth it writes bias and twice the low-rank product on top of
  the main accumulator into the output block. On the extended reals the formats' changes are the identity, and a sum taken in
  eight blocks is the sum: that regrouping (Spec) is the only law needed, and it needs no finiteness, so the precondition is
  never opened.

  The modules: Pieces (what each of the body's three cases leaves, as payloads), Accum (the accumulators by recursion on the
  step), Payloads (the payloads at an index), Blocks (the input blocks read in their arrays), Closed (the accumulators and the
  output block in closed form, by induction on the step), Final (the output array, its blocks tiling it, and the reshape after the
  region), Reference (the reference as one function), Bridge (the two functions are one).
-/
import proofs.«137842_j57561151700993_1_alg».proof.Defs
import proofs.«137842_j57561151700993_1_alg».proof.Proof.Gen.Kernel
import proofs.«137842_j57561151700993_1_alg».proof.Proof.Gen.Kernel.Skeleton
import proofs.«137842_j57561151700993_1_alg».proof.Proof.Gen.Kernel.Launch
import proofs.«137842_j57561151700993_1_alg».proof.Proof.Gen.Kernel.Points
import proofs.«137842_j57561151700993_1_alg».proof.Proof.Gen.Kernel.Frame
import proofs.«137842_j57561151700993_1_alg».proof.Proof.Gen.KernelIdeal
import proofs.«137842_j57561151700993_1_alg».proof.Proof.Gen.KernelIdeal.Skeleton
import proofs.«137842_j57561151700993_1_alg».proof.Proof.Gen.KernelIdeal.Launch
import proofs.«137842_j57561151700993_1_alg».proof.Proof.Gen.KernelIdeal.Points
import proofs.«137842_j57561151700993_1_alg».proof.Proof.Gen.KernelIdeal.Frame
import proofs.«137842_j57561151700993_1_alg».proof.Proof.Gen.ReferenceIdeal
import proofs.«137842_j57561151700993_1_alg».proof.Proof.Gen.ReferenceIdeal.Run
import proofs.«137842_j57561151700993_1_alg».proof.Proof.Gen.ReferenceIdeal.Read
import proofs.«137842_j57561151700993_1_alg».proof.Proof.Gen.Pre_finite_inputs
import proofs.«137842_j57561151700993_1_alg».proof.Proof.Bridge
import Idealize.ShloMosaic.Adequacy
import Idealize.ShloMosaic.Init

noncomputable section

namespace Cert.Proof

open Idealize.ShloMosaic Idealize.ShloMosaic.ValueIdx Idealize.SL.Sem

/-- At the ideal instance the kernel's result array and the reference's, from memories that agree on the arguments, are the
    same function of those arguments, index by index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KVal.kOut m c, Cert.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v14_eq, a0, a1, a2, a3, a4, a5, a6]
  funext i
  obtain ⟨b, s, o, rfl⟩ : ∃ (b : Fin 4) (s : Fin 2048) (o : Fin 4096), i = ix3 b s o := ⟨i 0, i 1, i 2, eq_ix3 i⟩
  rw [Cert.RefVal.ref_apply]
  exact (Cert.KVal.kOut_apply m c b s o).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
